-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x16384 : Shape := ⟨2, ![2048, 16384]⟩
abbrev S16384 : Shape := ⟨1, ![16384]⟩
abbrev S16384x2048 : Shape := ⟨2, ![16384, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S16384 : S_.BroadcastsInDim S16384 (![] : Fin 0 → Fin S16384.rank)
  reducesTo_S16384_S_d0 : S16384.ReducesTo [0] S_
  bcast_S_S16384x2048 : S_.BroadcastsInDim S16384x2048 (![] : Fin 0 → Fin S16384x2048.rank)
  reducesTo_S16384x2048_S_d0_1 : S16384x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S16384x2048 .f32) (main_arg5 : FVec F S2048 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384x2048 .f32 := Host.absf main_arg4
  let main_cst_6 : FVec F S_ .f32 := constant S_ .f32 0x7F800000#32
  let main_v20 : FVec F S16384x2048 .f32 := broadcastInDim S16384x2048 ![] bcast_S_S16384x2048 main_cst_6
  let main_v21 : IVec S16384x2048 1 := cmpf .olt main_v19 main_v20
  let main_c_7 : IVec S_ 1 := constantI S_ 1 1#1
  let main_v22 : IVec S_ 1 := (fun x v => Host.reduce IntOp.andi x v reducesTo_S16384x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8192x2048 .f32) (main_arg1 : FVec F S2048x16384 .f32) (main_arg2 : FVec F S16384 .f32) (main_arg3 : FVec F S16384 .f32) (main_arg4 : FVec F S16384x2048 .f32) (main_arg5 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_arg5 main_v13 main_v16
-- ==== Kernel.lean ====
abbrev S8192x2048 : Shape := ⟨2, ![8192, 2048]⟩
abbrev S2048x16384 : Shape := ⟨2, ![2048, 16384]⟩
abbrev S16384 : Shape := ⟨1, ![16384]⟩
abbrev S16384x2048 : Shape := ⟨2, ![16384, 2048]⟩
abbrev S2048 : Shape := ⟨1, ![2048]⟩
abbrev S1x16384 : Shape := ⟨2, ![1, 16384]⟩
abbrev S1x2048 : Shape := ⟨2, ![1, 2048]⟩
abbrev S8192x16384 : Shape := ⟨2, ![8192, 16384]⟩
abbrev S256x2048 : Shape := ⟨2, ![256, 2048]⟩
abbrev S2048x4096 : Shape := ⟨2, ![2048, 4096]⟩
abbrev S1x4096 : Shape := ⟨2, ![1, 4096]⟩
abbrev S256x4096 : Shape := ⟨2, ![256, 4096]⟩
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 13
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048x16384, .f32⟩
  | .hbm, ⟨2, _⟩ => ⟨S16384, .f32⟩
  | .hbm, ⟨3, _⟩ => ⟨S16384, .f32⟩
  | .hbm, ⟨4, _⟩ => ⟨S16384x2048, .f32⟩
  | .hbm, ⟨5, _⟩ => ⟨S2048, .f32⟩
  | .hbm, ⟨6, _⟩ => ⟨S1x16384, .f32⟩
  | .hbm, ⟨7, _⟩ => ⟨S1x16384, .f32⟩
  | .hbm, ⟨8, _⟩ => ⟨S1x2048, .f32⟩
  | .hbm, ⟨9, _⟩ => ⟨S2048x16384, .bf16⟩
  | .hbm, ⟨10, _⟩ => ⟨S16384x2048, .bf16⟩
  | .hbm, ⟨11, _⟩ => ⟨S8192x16384, .f32⟩
  | .hbm, ⟨12, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x2048, .f32⟩
  | .local _ .vmem, ⟨8, _⟩ => ⟨S256x4096, .f32⟩
  | .local _ .vmem, ⟨9, _⟩ => ⟨S256x4096, .f32⟩
  | .local _ .vmem, ⟨10, _⟩ => ⟨S2048x512, .f32⟩
  | .local _ .vmem, ⟨11, _⟩ => ⟨S2048x512, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S2048x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

class Facts₀ : Prop where
  shapeCasts_S16384_S1x16384 : S16384.ShapeCasts S1x16384
  shapeCasts_S2048_S1x2048 : S2048.ShapeCasts S1x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x2048_S2048x2048 : S2048x2048.ShapeCasts S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x2048_S2048x2048 : S1x2048.Broadcasts S2048x2048
  dot_S256x2048_S2048x4096_S256x4096_1_0_0_1_n_n_wf : DotDims.WF S256x2048 S2048x4096 S256x4096 [1] [0] [0] [1] [] []
  dot_S2048x512_S512x2048_S2048x2048_1_0_0_1_n_n_wf : DotDims.WF S2048x512 S512x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x16384.size a
  hwx0_1 : ∀ i : grid0.Coords, EltTy.bits .bf16 = 32 ∨ (Rect.block (s := S2048x16384) S2048x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x16384.size a
  hwx0_2 : ∀ i : grid0.Coords, EltTy.bits .f32 = 32 ∨ (Rect.block (s := S1x16384) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x16384.size a
  hwx0_3 : ∀ i : grid0.Coords, EltTy.bits .f32 = 32 ∨ (Rect.block (s := S1x16384) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x16384.size a
  hwx0_5 : ∀ i : grid0.Coords, EltTy.bits .f32 = 32 ∨ (Rect.block (s := S8192x16384) S256x4096.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x16384.size a
  hwx1_0 : ∀ i : grid1.Coords, EltTy.bits .f32 = 32 ∨ (Rect.block (s := S8192x16384) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .bf16 = 32 ∨ (Rect.block (s := S16384x2048) S512x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S8192x2048.size a
  hwx1_3 : ∀ i : grid1.Coords, EltTy.bits .f32 = 32 ∨ (Rect.block (s := S8192x2048) S2048x2048.size (cc1_transform_3 i) (hinb1_3 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x2048.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x16384 : Shape := ⟨2, ![2048, 16384]⟩
abbrev S16384 : Shape := ⟨1, ![16384]⟩
abbrev S16384x2048 : Shape := ⟨2, ![16384, 2048]⟩
abbrev S2048 : Shape := ⟨1, ![2048]⟩
abbrev S1x2048 : Shape := ⟨2, ![1, 2048]⟩
abbrev S8192x16384 : Shape := ⟨2, ![8192, 16384]⟩
abbrev S1x16384 : Shape := ⟨2, ![1, 16384]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x16384, .f32⟩
  | .hbm, ⟨2, _⟩ => ⟨S16384, .f32⟩
  | .hbm, ⟨3, _⟩ => ⟨S16384, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x16384, .f32⟩
  | .hbm, ⟨10, _⟩ => ⟨S1x16384, .f32⟩
  | .hbm, ⟨11, _⟩ => ⟨S8192x16384, .f32⟩
  | .hbm, ⟨12, _⟩ => ⟨S8192x16384, .f32⟩
  | .hbm, ⟨13, _⟩ => ⟨S1x16384, .f32⟩
  | .hbm, ⟨14, _⟩ => ⟨S8192x16384, .f32⟩
  | .hbm, ⟨15, _⟩ => ⟨S8192x16384, .i1⟩
  | .hbm, ⟨16, _⟩ => ⟨S8192x16384, .f32⟩
  | .hbm, ⟨17, _⟩ => ⟨S8192x16384, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x2048_S2048x16384_S8192x16384_1_0_0_1_n_n_wf : DotDims.WF S8192x2048 S2048x16384 S8192x16384 [1] [0] [0] [1] [] []
  dot_S8192x16384_S16384x2048_S8192x2048_1_0_0_1_n_n_wf : DotDims.WF S8192x16384 S16384x2048 S8192x2048 [1] [0] [0] [1] [] []

variable [Facts₀]

def dot_S8192x2048_S2048x16384_S8192x16384_1_0_0_1_n_n : DotDims S8192x2048 S2048x16384 S8192x16384 where
  lhsContracting := [1]
  rhsContracting := [0]
  lhsNonContracting := [0]
  rhsNonContracting := [1]
  lhsBatch := []
  rhsBatch := []
  wf := dot_S8192x2048_S2048x16384_S8192x16384_1_0_0_1_n_n_wf
def dot_S8192x16384_S16384x2048_S8192x2048_1_0_0_1_n_n : DotDims S8192x16384 S16384x2048 S8192x2048 where
  lhsContracting := [1]
  rhsContracting := [0]
  lhsNonContracting := [0]
  rhsNonContracting := [1]
  lhsBatch := []
  rhsBatch := []
  wf := dot_S8192x16384_S16384x2048_S8192x2048_1_0_0_1_n_n_wf

class Facts : Prop extends Facts₀ where

variable [Facts]
-- ==== Proof.Spec.lean ====
/-
  The mathematics both programs compute, over the extended reals, stated once over coordinate-indexed
  functions (no program, no array layout):

    pre  r c = (∑ k, (x r k − b_dec k) · W_enc k c) + b_enc c          the encoder's pre-activation
    feat r c = pre r c   if  threshold c < pre r c,   else 0           the jump-ReLU gate
    recon r d = (∑ k, f r k · W_dec k d) + b_dec d                      the decoder, of any feature array f

  and the law that joins the two programs' spellings of the gate: a product with the 0/1 indicator of a condition is
  the value where the condition holds and zero elsewhere (on the extended reals too: 0 · x = 0 for every x).
-/
import Idealize.ShloMosaic.PureOps.Ideal
import Idealize.ShloMosaic.Lib.ValueIdx

noncomputable section

open scoped BigOperators

namespace Cert.Sae

/-- The encoder's pre-activation at row `r`, feature `c`. -/
def pre (x : Fin 8192 → Fin 2048 → EReal) (we : Fin 2048 → Fin 16384 → EReal) (be : Fin 16384 → EReal)
    (bd : Fin 2048 → EReal) (r : Fin 8192) (c : Fin 16384) : EReal :=
  (∑ k : Fin 2048, (x r k - bd k) * we k c) + be c

/-- The gated feature: the pre-activation where it exceeds the threshold, zero elsewhere. -/
def feat (x : Fin 8192 → Fin 2048 → EReal) (we : Fin 2048 → Fin 16384 → EReal) (be th : Fin 16384 → EReal)
    (bd : Fin 2048 → EReal) (r : Fin 8192) (c : Fin 16384) : EReal :=
  if th c < pre x we be bd r c then pre x we be bd r c else 0

/-- The decoder's output at row `r`, coordinate `d`, of a feature array `f`. -/
def recon (f : Fin 8192 → Fin 16384 → EReal) (wd : Fin 16384 → Fin 2048 → EReal) (bd : Fin 2048 → EReal)
    (r : Fin 8192) (d : Fin 2048) : EReal :=
  (∑ k : Fin 16384, f r k * wd k d) + bd d

/-- A product with the 0/1 indicator of a condition is the gate on that condition. -/
theorem mul_indicator (p : EReal) (b : Prop) [Decidable b] :
    p * (((BitVec.ofBool (decide b)).toNat : ℝ) : EReal) = if b then p else 0 := by
  by_cases h : b
  · simp [h]
  · simp [h]

end Cert.Sae

end
-- ==== Proof.KRun.lean ====
/-
  The idealized kernel program's run with its two result arrays NAMED.

  @main is a stretch of five host operations followed by two kernel regions. The buffer contents at the three
  boundaries are a fold from the launch memory: after the host stretch; after the first region (its output
  array at what its write-backs leave, everything else as entered); after the second region likewise. Every weakly
  fair execution terminates, nothing faulting, and the final memory holds that last fold at every unscoped buffer:
  in particular at the two results, and — the fold walking back through buffers no segment writes — at the
  arguments as launched. The two results are then opened one boundary at a time: the feature array is the first
  region's output (the second region only reads it), the reconstruction the second region's output.
-/
import proofs.«142196_j30820685316795_2_alg».proof.Proof.Gen.KernelIdeal.Frame
import Idealize.ShloMosaic.Lib.Pipeline.Value

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run_main : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       h c _ (mem_uc main_v5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- The reconstruction is the second region's output array after its last write-back. -/
theorem W3_main_v6 (c : Dev nD) : W3 m ρ c (Proc.devRef .tc main_v6) = (dat1 (V2 m ρ) c).arrAt 3 cfg1.N :=
  W3_arr m ρ c 3

/-- The feature array: the second region reads it through an input window and leaves it as entered; at its entry it
    is the first region's output array after its last write-back. -/
theorem W3_main_v5 (c : Dev nD) : W3 m ρ c (Proc.devRef .tc main_v5) = (dat0 (V1 m ρ) c).arrAt 5 cfg0.N :=
  calc W3 m ρ c (Proc.devRef .tc main_v5)
    _ = W2 m ρ c (Proc.devRef .tc main_v5) := (W3_arr m ρ c 0).trans (((dat1 (V2 m ρ) c).arrAt_in 0 rfl _).trans (A_eq1 (V2 m ρ) c 0))
    _ = (dat0 (V1 m ρ) c).arrAt 5 cfg0.N := W2_arr m ρ c 5

/-- The second region finds the feature array as the first region left it, -/
theorem V2_main_v5 (c : Dev nD) : V2 m ρ c main_v5 = (dat0 (V1 m ρ) c).arrAt 5 cfg0.N := W2_arr m ρ c 5

/-- the decoder weights as the host stretch left them (the first region does not touch them), -/
theorem V2_main_v4 (c : Dev nD) : V2 m ρ c main_v4 = V1 m ρ c main_v4 := W2_of_ne m ρ c main_v4 (by decide)

/-- and the decoder bias row as the host stretch left it (the first region only reads it). -/
theorem V2_main_v2 (c : Dev nD) : V2 m ρ c main_v2 = V1 m ρ c main_v2 :=
  (W2_arr m ρ c 4).trans (((dat0 (V1 m ρ) c).arrAt_in 4 rfl _).trans (A_eq0 (V1 m ρ) c 4))

end Cert.KernelIdeal.KRun

end
-- ==== Proof.HostOps.lean ====
/-
  What the five host operations before the first region leave, read at an index: the three bias vectors reshaped
  to one-row arrays hold, at (0, n), the vector's entry n; the two weight matrices converted to the narrower float
  format hold, at the ideal values, the same extended reals.
-/
import proofs.«142196_j30820685316795_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostOps

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The encoder bias as a one-row array. -/
theorem V1_main_v0 (c : Dev nD) :
    V1 m ρ c main_v0 = shapeCast S1x16384 (m ((c : Thread nD τ).loc main_arg2)) shapeCasts_S16384_S1x16384 := by
  show StableHlo.after hostOps0 (W0 m ρ c) (Proc.devRef .tc main_v0) = _
  after_results
  rfl

/-- The threshold as a one-row array. -/
theorem V1_main_v1 (c : Dev nD) :
    V1 m ρ c main_v1 = shapeCast S1x16384 (m ((c : Thread nD τ).loc main_arg3)) shapeCasts_S16384_S1x16384 := by
  show StableHlo.after hostOps0 (W0 m ρ c) (Proc.devRef .tc main_v1) = _
  after_results
  rfl

/-- The decoder bias as a one-row array. -/
theorem V1_main_v2 (c : Dev nD) :
    V1 m ρ c main_v2 = shapeCast S1x2048 (m ((c : Thread nD τ).loc main_arg5)) shapeCasts_S2048_S1x2048 := by
  show StableHlo.after hostOps0 (W0 m ρ c) (Proc.devRef .tc main_v2) = _
  after_results
  rfl

/-- The activations are an argument: no host operation writes them. -/
theorem V1_main_arg0 (c : Dev nD) : V1 m ρ c main_arg0 = m ((c : Thread nD τ).loc main_arg0) := by
  show StableHlo.after hostOps0 (W0 m ρ c) (Proc.devRef .tc main_arg0) = _
  after_results

/-- Entry n of the encoder bias sits at (0, n) of its one-row array. -/
theorem benc_at (c : Dev nD) (n : Fin 16384) :
    V1 m ρ c main_v0 (ix2 (0 : Fin 1) n) = m ((c : Thread nD τ).loc main_arg2) (ix1 n) := by
  rw [V1_main_v0]
  exact shapeCast_a_1a_apply _ _ 0 n

/-- Entry n of the threshold sits at (0, n) of its one-row array. -/
theorem thr_at (c : Dev nD) (n : Fin 16384) :
    V1 m ρ c main_v1 (ix2 (0 : Fin 1) n) = m ((c : Thread nD τ).loc main_arg3) (ix1 n) := by
  rw [V1_main_v1]
  exact shapeCast_a_1a_apply _ _ 0 n

/-- Entry k of the decoder bias sits at (0, k) of its one-row array. -/
theorem bdec_at (c : Dev nD) (k : Fin 2048) :
    V1 m ρ c main_v2 (ix2 (0 : Fin 1) k) = m ((c : Thread nD τ).loc main_arg5) (ix1 k) := by
  rw [V1_main_v2]
  exact shapeCast_a_1a_apply _ _ 0 k

/-- At the ideal values a change of float format is the identity: the encoder weights entry by entry. -/
theorem wenc_at (c : Dev nD) (k : Fin 2048) (n : Fin 16384) :
    V1 m ρ c main_v3 (ix2 k n) = m ((c : Thread nD τ).loc main_arg1) (ix2 k n) := by
  show StableHlo.after hostOps0 (W0 m ρ c) (Proc.devRef .tc main_v3) (ix2 k n) = _
  after_results
  rfl

/-- The decoder weights entry by entry. -/
theorem wdec_at (c : Dev nD) (k : Fin 16384) (d : Fin 2048) :
    V1 m ρ c main_v4 (ix2 k d) = m ((c : Thread nD τ).loc main_arg4) (ix2 k d) := by
  show StableHlo.after hostOps0 (W0 m ρ c) (Proc.devRef .tc main_v4) (ix2 k d) = _
  after_results
  rfl

end Cert.KernelIdeal.HostOps

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.EncPayload.lean ====
/-
  One element of the encoder block, over the extended reals.

  The encode step works on a block of 256 rows of the input and a block of 4096 features. For row `p` and feature `q`
  of the block it forms the pre-activation

      s = (∑ k, (x p k − b_dec k) · W k q) + b_enc q        (k over the 2048 input coordinates)

  and keeps `s` where it exceeds the feature's threshold, writing zero elsewhere. At the ideal values the change of
  float format before the product is the identity, the product into the zero accumulator is the plain sum, a row
  vector broadcast over the rows reads its one row, the ordered comparison "greater than" is the strict order of the
  extended reals, and the zero word is the real zero.
-/
import proofs.«142196_j30820685316795_2_alg».proof.Proof.Gen.KernelIdeal.Skeleton
import proofs.«142196_j30820685316795_2_alg».proof.Proof.LibMatmul
import Idealize.ShloMosaic.Lib.ValueLayout
import Idealize.ShloMosaic.Lib.Pipeline.Value
import Idealize.ShloMosaic.Lib.ValueIdx

noncomputable section
open scoped BigOperators
open Idealize.ShloMosaic Idealize.ShloMosaic.ValueIdx

namespace Cert.KernelIdeal.Enc
open Cert.KernelIdeal Cert.KernelIdeal.Gen

/-- The block product into the zero accumulator, at row `p` and column `q`: the sum over the 2048 contraction
    coordinates of the products of the left operand at `(p, k)` and the right operand at `(k, q)`. -/
theorem matmul_at (l : FVec Ideal S256x2048 .bf16) (r : FVec Ideal S2048x4096 .bf16) (p : Fin 256) (q : Fin 4096) :
    matmul (F := Ideal) dot_S256x2048_S2048x4096_S256x4096_1_0_0_1_n_n none l r (constant S256x4096 .f32 0x00000000#32) (ix2 p q)
      = ∑ k : Fin 2048, l (ix2 p k) * r (ix2 k q) :=
  Cert.MatOps.matmul_plain_zero_apply (M := 256) (K := 2048) (N := 4096) none l r p q

/-- The gate on one element: selecting `a` where `a` is greater than `b` and the zero word elsewhere is
    "`a` if `b < a`, else `0`". -/
theorem gate (a b : Ideal .f32) :
    Scalar.select (FloatOps.cmpf CmpFPredicate.ogt a b) a (FloatOps.ofBits (F := Ideal) FTy.f32 0x00000000#32) = if b < a then a else 0 := by
  rw [Ideal.cmpf_def]
  show (if BitVec.ofBool (decide (b < a)) = 1#1 then a else Ideal.ofBits .f32 0x00000000#32) = _
  rw [Ideal.ofBits_zero_f32]
  by_cases h : b < a
  · rw [if_pos h, decide_eq_true h]; rfl
  · rw [if_neg h, decide_eq_false h]; rfl

/-- The block's element at `(p, q)`, from the five loaded blocks: `x0` the 256 input rows, `x4` the decoder bias row,
    `x1` the encoder weights' 4096 columns, `x2` the encoder bias row, `x3` the threshold row. -/
theorem pay_apply (x0 : Vec Ideal S256x2048 .f32) (x4 : Vec Ideal S1x2048 .f32) (x1 : Vec Ideal S2048x4096 .bf16)
    (x2 x3 : Vec Ideal S1x4096 .f32) (p : Fin 256) (q : Fin 4096) :
    k0_pay1 (F := Ideal) x0 x4 x1 x2 x3 (ix2 p q)
      = if x3 (ix2 (0 : Fin 1) q) < (∑ k : Fin 2048, (x0 (ix2 p k) - x4 (ix2 (0 : Fin 1) k)) * x1 (ix2 k q)) + x2 (ix2 (0 : Fin 1) q)
        then (∑ k : Fin 2048, (x0 (ix2 p k) - x4 (ix2 (0 : Fin 1) k)) * x1 (ix2 k q)) + x2 (ix2 (0 : Fin 1) q) else 0 := by
  unfold k0_pay1
  simp only [shapeCast_self]
  rw [select_apply, cmpf_apply, broadcast_apply, addf_apply, matmul_at, broadcastTo_1b_ab_apply, broadcastTo_1b_ab_apply]
  have hs : ∀ k : Fin 2048, (truncf FTy.bf16 (subf x0 (broadcastTo S256x2048 x4 broadcasts_S1x2048_S256x2048)) bitsLt_bf16_f32 : FVec Ideal S256x2048 .bf16) (ix2 p k) = x0 (ix2 p k) - x4 (ix2 (0 : Fin 1) k) := fun k => by
    rw [truncf_apply, subf_apply, broadcastTo_1b_ab_apply]
  simp only [hs]
  exact gate _ _

end Cert.KernelIdeal.Enc
end
-- ==== Proof.EncValue.lean ====
/-
  The encode region's output array, after all of its grid points have run.

  The region walks a 4 × 32 grid: point `t` has feature tile `t / 32` (4096 features each) and row tile `t % 32`
  (256 rows each). At point `t` it stages rows `256·(t % 32) …` of the input, columns `4096·(t / 32) …` of the encoder
  weights, the matching 4096 entries of the encoder bias and of the thresholds, and the whole decoder bias; it computes
  the 256 × 4096 block of gated features and writes it back at block `(t % 32, t / 32)` of the output.

  Three facts give the array: (i) each staged block read at a block index is its array read at "block index × block
  size + the index inside the block", axis by axis; (ii) so the block a point writes is the restriction to its
  rectangle of ONE function of the arrays, the gated feature `Cert.Sae.feat` at each (row, feature); (iii) the 128
  rectangles cover the output — row `r`, feature `n` lies in the block of point `32·(n / 4096) + r / 256`. Hence the
  array ends as that function everywhere.
-/
import proofs.«142196_j30820685316795_2_alg».proof.Proof.Gen.KernelIdeal.Frame
import proofs.«142196_j30820685316795_2_alg».proof.Proof.EncPayload
import proofs.«142196_j30820685316795_2_alg».proof.Proof.Spec
import Idealize.ShloMosaic.Lib.Pipeline.Value
import Idealize.ShloMosaic.Lib.ValueIdx

noncomputable section
open scoped BigOperators
open Idealize.ShloMosaic Idealize.ShloMosaic.TcCoe Idealize.SL.Sem Idealize.ShloMosaic.ValueIdx
open Idealize.ShloMosaic.Pipeline (Dat)

namespace Cert.KernelIdeal.Enc
open Cert.KernelIdeal Cert.KernelIdeal.Gen

/-- The zero offsets of a whole-block access, however spelt. -/
theorem hz : (![0, 0] : Fin 2 → Nat) = fun _ => 0 := funext fun a => by fin_cases a <;> rfl

/-- The block indices of the six windows at grid point `t`, decided over the 128 points: the point's row tile is
    `t % 32` and its feature tile is `t / 32`. -/
theorem idx_facts : ∀ t : Fin cfg0.N,
    win0_0.index t (0 : Fin 2) = t.val % 32 ∧ win0_0.index t (1 : Fin 2) = 0
    ∧ win0_1.index t (0 : Fin 2) = 0 ∧ win0_1.index t (1 : Fin 2) = t.val / 32
    ∧ win0_2.index t (0 : Fin 2) = 0 ∧ win0_2.index t (1 : Fin 2) = t.val / 32
    ∧ win0_3.index t (0 : Fin 2) = 0 ∧ win0_3.index t (1 : Fin 2) = t.val / 32
    ∧ win0_4.index t (0 : Fin 2) = 0 ∧ win0_4.index t (1 : Fin 2) = 0
    ∧ win0_5.index t (0 : Fin 2) = t.val % 32 ∧ win0_5.index t (1 : Fin 2) = t.val / 32 :=
  (by decide +kernel : ∀ t : Fin grid0.N, _)

variable (V : (c : Dev nD) → (b : Ref sig .tc) → Buf (Elt Ideal) ((c : Thread nD τ).loc b))

/-- The input block at point `t` is rows `256·(t % 32) …` of the input array. -/
theorem blk_x (c : Dev nD) (t : Fin cfg0.N) (y : S256x2048.Idx) (i : S8192x2048.Idx)
    (h0 : (i 0).val = t.val % 32 * 256 + (y 0).val) (h1 : (i 1).val = (y 1).val) :
    (iblk0 V c 0 t : Vec Ideal S256x2048 .f32) y = (V c main_arg0 : S8192x2048.Idx → EReal) i := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 256 + 1 * (y 0).val = (i 0).val; rw [e0, h0]; omega
  | ⟨1, _⟩ => show win0_0.index t (1 : Fin 2) * 2048 + 1 * (y 1).val = (i 1).val; rw [e1, h1]; omega

/-- The encoder weights' block at point `t` is columns `4096·(t / 32) …` of the weight array. -/
theorem blk_w (c : Dev nD) (t : Fin cfg0.N) (y : S2048x4096.Idx) (i : S2048x16384.Idx)
    (h0 : (i 0).val = (y 0).val) (h1 : (i 1).val = t.val / 32 * 4096 + (y 1).val) :
    (iblk0 V c 1 t : Vec Ideal S2048x4096 .bf16) y = (V c main_v3 : S2048x16384.Idx → EReal) i := by
  obtain ⟨-, -, e0, e1, -⟩ := idx_facts t
  unfold iblk0
  rw [View.read_apply]
  show V c main_v3 _ = V c main_v3 _
  refine congrArg _ (funext fun a => Fin.ext ?_)
  match a with
  | ⟨0, _⟩ => show win0_1.index t (0 : Fin 2) * 2048 + 1 * (y 0).val = (i 0).val; rw [e0, h0]; omega
  | ⟨1, _⟩ => show win0_1.index t (1 : Fin 2) * 4096 + 1 * (y 1).val = (i 1).val; rw [e1, h1]; omega

/-- The encoder bias's block at point `t` is entries `4096·(t / 32) …` of the bias row. -/
theorem blk_be (c : Dev nD) (t : Fin cfg0.N) (y : S1x4096.Idx) (i : S1x16384.Idx)
    (h0 : (i 0).val = (y 0).val) (h1 : (i 1).val = t.val / 32 * 4096 + (y 1).val) :
    (iblk0 V c 2 t : Vec Ideal S1x4096 .f32) y = (V c main_v0 : S1x16384.Idx → EReal) i := by
  obtain ⟨-, -, -, -, e0, e1, -⟩ := idx_facts t
  unfold iblk0
  rw [View.read_apply]
  show V c main_v0 _ = V c main_v0 _
  refine congrArg _ (funext fun a => Fin.ext ?_)
  match a with
  | ⟨0, _⟩ => show win0_2.index t (0 : Fin 2) * 1 + 1 * (y 0).val = (i 0).val; rw [e0, h0]; omega
  | ⟨1, _⟩ => show win0_2.index t (1 : Fin 2) * 4096 + 1 * (y 1).val = (i 1).val; rw [e1, h1]; omega

/-- The thresholds' block at point `t` is entries `4096·(t / 32) …` of the threshold row. -/
theorem blk_th (c : Dev nD) (t : Fin cfg0.N) (y : S1x4096.Idx) (i : S1x16384.Idx)
    (h0 : (i 0).val = (y 0).val) (h1 : (i 1).val = t.val / 32 * 4096 + (y 1).val) :
    (iblk0 V c 3 t : Vec Ideal S1x4096 .f32) y = (V c main_v1 : S1x16384.Idx → EReal) i := by
  obtain ⟨-, -, -, -, -, -, e0, e1, -⟩ := idx_facts t
  unfold iblk0
  rw [View.read_apply]
  show V c main_v1 _ = V c main_v1 _
  refine congrArg _ (funext fun a => Fin.ext ?_)
  match a with
  | ⟨0, _⟩ => show win0_3.index t (0 : Fin 2) * 1 + 1 * (y 0).val = (i 0).val; rw [e0, h0]; omega
  | ⟨1, _⟩ => show win0_3.index t (1 : Fin 2) * 4096 + 1 * (y 1).val = (i 1).val; rw [e1, h1]; omega

/-- The decoder bias's block at every point is the whole bias row. -/
theorem blk_bd (c : Dev nD) (t : Fin cfg0.N) (y : S1x2048.Idx) (i : S1x2048.Idx)
    (h0 : (i 0).val = (y 0).val) (h1 : (i 1).val = (y 1).val) :
    (iblk0 V c 4 t : Vec Ideal S1x2048 .f32) y = (V c main_v2 : S1x2048.Idx → EReal) i := by
  obtain ⟨-, -, -, -, -, -, -, -, e0, e1, -⟩ := idx_facts t
  unfold iblk0
  rw [View.read_apply]
  show V c main_v2 _ = V c main_v2 _
  refine congrArg _ (funext fun a => Fin.ext ?_)
  match a with
  | ⟨0, _⟩ => show win0_4.index t (0 : Fin 2) * 1 + 1 * (y 0).val = (i 0).val; rw [e0, h0]; omega
  | ⟨1, _⟩ => show win0_4.index t (1 : Fin 2) * 2048 + 1 * (y 1).val = (i 1).val; rw [e1, h1]; omega

/-- The encoder's output as one function of the arrays the region finds: the gated feature at each row and feature. -/
abbrev G (c : Dev nD) : S8192x16384.Idx → EReal := fun i =>
  Cert.Sae.feat (fun r k => V c main_arg0 (ix2 r k)) (fun k n => V c main_v3 (ix2 k n))
    (fun n => V c main_v0 (ix2 (0 : Fin 1) n)) (fun n => V c main_v1 (ix2 (0 : Fin 1) n)) (fun k => V c main_v2 (ix2 (0 : Fin 1) k)) (i 0) (i 1)

/-- The block's element at `(p, q)` is the gated feature at row `r`, feature `n` of any arrays whose entries the five
    loaded blocks hold there: the input's row `r`, the weights' column `n`, the two biases and the threshold. -/
theorem pay_feat (x0 : Vec Ideal S256x2048 .f32) (x4 : Vec Ideal S1x2048 .f32) (x1 : Vec Ideal S2048x4096 .bf16)
    (x2 x3 : Vec Ideal S1x4096 .f32) (X : Fin 8192 → Fin 2048 → EReal) (W : Fin 2048 → Fin 16384 → EReal)
    (be th : Fin 16384 → EReal) (bd : Fin 2048 → EReal) (p : Fin 256) (q : Fin 4096) (r : Fin 8192) (n : Fin 16384)
    (h0 : ∀ k : Fin 2048, x0 (ix2 p k) = X r k) (h4 : ∀ k : Fin 2048, x4 (ix2 (0 : Fin 1) k) = bd k)
    (h1 : ∀ k : Fin 2048, x1 (ix2 k q) = W k n) (h2 : x2 (ix2 (0 : Fin 1) q) = be n) (h3 : x3 (ix2 (0 : Fin 1) q) = th n) :
    k0_pay1 (F := Ideal) x0 x4 x1 x2 x3 (ix2 p q) = Cert.Sae.feat X W be th bd r n := by
  rw [pay_apply, h2, h3]
  simp only [h0, h4, h1]
  rfl

/-- One element of the block point `t` computes is the gated feature at the array position of that element: row
    `256·(t % 32) + p`, feature `4096·(t / 32) + q`. -/
theorem elem_eq (c : Dev nD) (t : Fin cfg0.N) (y : S256x4096.Idx) (r : Fin 8192) (n : Fin 16384)
    (hr : r.val = t.val % 32 * 256 + (y 0).val) (hn : n.val = t.val / 32 * 4096 + (y 1).val) :
    k0_pay1 (F := Ideal) (iblk0 V c 0 t) (iblk0 V c 4 t) (iblk0 V c 1 t) (iblk0 V c 2 t) (iblk0 V c 3 t) y
      = Cert.Sae.feat (fun r k => V c main_arg0 (ix2 r k)) (fun k n => V c main_v3 (ix2 k n))
          (fun n => V c main_v0 (ix2 (0 : Fin 1) n)) (fun n => V c main_v1 (ix2 (0 : Fin 1) n)) (fun k => V c main_v2 (ix2 (0 : Fin 1) k)) r n := by
  obtain ⟨p, q, rfl⟩ : ∃ (p : Fin 256) (q : Fin 4096), y = ix2 p q := ⟨y 0, y 1, eq_ix2 y⟩
  exact pay_feat (iblk0 V c 0 t) (iblk0 V c 4 t) (iblk0 V c 1 t) (iblk0 V c 2 t) (iblk0 V c 3 t)
    (fun r k => V c main_arg0 (ix2 r k)) (fun k n => V c main_v3 (ix2 k n))
    (fun n => V c main_v0 (ix2 (0 : Fin 1) n)) (fun n => V c main_v1 (ix2 (0 : Fin 1) n)) (fun k => V c main_v2 (ix2 (0 : Fin 1) k))
    p q r n
    (fun k => blk_x V c t (ix2 p k) (ix2 r k) hr rfl)
    (fun k => blk_bd V c t (ix2 (0 : Fin 1) k) (ix2 (0 : Fin 1) k) rfl rfl)
    (fun k => blk_w V c t (ix2 k q) (ix2 k n) rfl hn)
    (blk_be V c t (ix2 (0 : Fin 1) q) (ix2 (0 : Fin 1) n) rfl hn)
    (blk_th V c t (ix2 (0 : Fin 1) q) (ix2 (0 : Fin 1) n) rfl hn)

/-- What point `t` writes back is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S256x2048) hz, View.ld_unit_zero (S := S1x2048) hz,
    View.ld_unit_zero (S := S2048x4096) hz, View.ld_unit_zero (S := S1x4096) hz]
  obtain ⟨-, -, -, -, -, -, -, -, -, -, e0, e1⟩ := idx_facts t
  funext j
  show k0_pay1 (F := Ideal) (iblk0 V c 0 t) (iblk0 V c 4 t) (iblk0 V c 1 t) (iblk0 V c 2 t) (iblk0 V c 3 t) j
    = G V c (((cfg0.win 5).blk t).view.emb j)
  refine elem_eq V c t j _ _ ?_ ?_
  · show win0_5.index t (0 : Fin 2) * 256 + 1 * (j 0).val = _; rw [e0]; omega
  · show win0_5.index t (1 : Fin 2) * 4096 + 1 * (j 1).val = _; rw [e1]; omega

/-- An index of the output array is in point `t`'s block iff each coordinate is in the block's range on its axis. -/
theorem mem_blk (t : Fin cfg0.N) (i : S8192x16384.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v5).slice (win0_5.rect t)).set ↔ _
  rw [View.set_slice_whole, Rect.mem_set_unit]
  exact Iff.rfl

/-- The blocks tile the array: row `r`, feature `n` lies in the block of the point with row tile `r / 256` and
    feature tile `n / 4096`, which is point `32·(n / 4096) + r / 256`. -/
theorem cover (i : S8192x16384.Idx) :
    ∃ t : Fin cfg0.N, (cfg0.win 5).flush t = true ∧ i ∈ ((cfg0.win 5).blk t).view.set := by
  have hi0 : (i 0).val < 8192 := (i 0).isLt
  have hi1 : (i 1).val < 16384 := (i 1).isLt
  have hN : cfg0.N = 128 := N_0
  obtain ⟨t, ht⟩ : ∃ t : Fin cfg0.N, t.val = 32 * ((i 1).val / 4096) + (i 0).val / 256 :=
    ⟨⟨32 * ((i 1).val / 4096) + (i 0).val / 256, by rw [hN]; omega⟩, rfl⟩
  refine ⟨t, flush0_5 t, ?_⟩
  rw [mem_blk]
  obtain ⟨-, -, -, -, -, -, -, -, -, -, e0, e1⟩ := idx_facts t
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 4096 ≤ (i 1).val ∧ (i 1).val < win0_5.index t (1 : Fin 2) * 4096 + 4096
    rw [e1, ht]; omega

end Cert.KernelIdeal.Enc

namespace Cert.KernelIdeal.Enc
open Cert.KernelIdeal Cert.KernelIdeal.Gen

/-- The encode region's output array, after all 128 points have written their blocks back: the gated feature at
    every row and feature, as a function of the arrays the region found. -/
theorem final (V : (c : Dev nD) → (b : Ref sig .tc) → Buf (Elt Ideal) ((c : Thread nD τ).loc b)) (c : Dev nD) :
    (dat0 (F := Ideal) V c).arrAt 5 cfg0.N
      = fun i : S8192x16384.Idx => Cert.Sae.feat (fun r k => V c main_arg0 (ix2 r k)) (fun k n => V c main_v3 (ix2 k n))
          (fun n => V c main_v0 (ix2 (0 : Fin 1) n)) (fun n => V c main_v1 (ix2 (0 : Fin 1) n)) (fun k => V c main_v2 (ix2 (0 : Fin 1) k)) (i 0) (i 1) :=
  (dat0 (F := Ideal) V c).arrAt_eq_of_cover 5 (G V c) (fun t _ => flushed_eq V c t) cover

end Cert.KernelIdeal.Enc
end
-- ==== Proof.DecPieces.lean ====
/-
  What each control case of the decoder's body leaves in the output's staging block, as one term of the blocks it reads.

  The body stores the whole [2048, 2048] block each time it stores, so what the block holds afterwards is the payload of
  the LAST store, and a load that follows a store reads that store's payload back. Hence, with `x0` the feature tile,
  `x1` the decoder-weight tile, `x2` the bias row and `xo` the block as the point before left it:

    first tile of a row block   (reset, then accumulate):          acc(x0, zero block, x1)
    a middle tile               (accumulate):                      acc(x0, xo, x1)
    last tile of a row block    (accumulate, then add the bias):   bias(acc(x0, xo, x1), x2)

  where `acc` is the body's "block + tile product" term and `bias` its "block + bias row" term. These hold for any
  float values.
-/
import proofs.«142196_j30820685316795_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem

namespace Cert.KernelIdeal.Dec
open Cert.KernelIdeal Cert.KernelIdeal.Gen

variable {F : FTy → Type} [FloatOps F]

/-- The two zero offsets of a whole-block access. -/
theorem hz : (![0, 0] : Fin 2 → Nat) = fun _ => 0 := funext fun a => by fin_cases a <;> rfl

/-- A middle tile: the block ends at the accumulation term of the carried block. -/
theorem piece_mid (c : Dev nD) (i : grid1.Coords) (a0 : Memref sig .tc .vmem S2048x512 .f32) (h0 : a0.IsWhole)
    (a1 : Memref sig .tc .vmem S512x2048 .bf16) (h1 : a1.IsWhole) (a2 : Memref sig .tc .vmem S1x2048 .f32) (h2 : a2.IsWhole)
    (a3 : Memref sig .tc .vmem S2048x2048 .f32) (h3 : a3.IsWhole) (hc0 : ¬cond1_0 i) (hc1 : ¬cond1_1 i)
    (x0 : Vec F S2048x512 .f32) (x1 : Vec F S512x2048 .bf16) (x2 : Vec F S1x2048 .f32) (xo : Vec F S2048x2048 .f32) :
    out1_B_3 c i a0 h0 a1 h1 a2 h2 a3 h3 hc0 hc1 x0 x1 x2 xo = k1_pay2 x0 xo x1 := by
  unfold out1_B_3
  rw [View.read_writes_eq_canon _ _ _ (cover1_B_3 c i a0 h0 a1 h1 a2 h2 a3 h3 hc0 hc1 x0 x1 x2 xo)]
  unfold kernelRun1_B
  dsimp only
  rw [View.canon_unit_zero hz]
  simp only [View.readAt_eq_ld, h0.read_unread, h1.read_unread, h3.read_unread, View.ld_unit_zero (S := S2048x512) hz,
    View.ld_unit_zero (S := S2048x2048) hz, View.ld_unit_zero (S := S512x2048) hz]

/-- The first tile: the zero block is stored and read back, so the block ends at the accumulation term of the zero block. -/
theorem piece_first (c : Dev nD) (i : grid1.Coords) (a0 : Memref sig .tc .vmem S2048x512 .f32) (h0 : a0.IsWhole)
    (a1 : Memref sig .tc .vmem S512x2048 .bf16) (h1 : a1.IsWhole) (a2 : Memref sig .tc .vmem S1x2048 .f32) (h2 : a2.IsWhole)
    (a3 : Memref sig .tc .vmem S2048x2048 .f32) (h3 : a3.IsWhole) (hc0 : cond1_0 i) (hc1 : ¬cond1_1 i)
    (x0 : Vec F S2048x512 .f32) (x1 : Vec F S512x2048 .bf16) (x2 : Vec F S1x2048 .f32) :
    out1_A_3 c i a0 h0 a1 h1 a2 h2 a3 h3 hc0 hc1 x0 x1 x2 = k1_pay2 x0 k1_pay1 x1 := by
  unfold out1_A_3
  rw [View.read_writes_eq_canon _ _ _ (cover1_A_3 c i a0 h0 a1 h1 a2 h2 a3 h3 hc0 hc1 x0 x1 x2)]
  unfold kernelRun1_A
  dsimp only
  sl_unfold_words
  rw [View.canon_cons_unit_zero (S := S2048x2048) hz, View.readCov_unit_zero (S := S2048x2048) _ hz]
  simp only [View.readAt_eq_ld, h0.read_unread, h1.read_unread, View.ld_unit_zero (S := S2048x512) hz,
    View.ld_unit_zero (S := S512x2048) hz]

/-- The last tile: the accumulation term is stored and read back, then the bias term of it is stored. -/
theorem piece_last (c : Dev nD) (i : grid1.Coords) (a0 : Memref sig .tc .vmem S2048x512 .f32) (h0 : a0.IsWhole)
    (a1 : Memref sig .tc .vmem S512x2048 .bf16) (h1 : a1.IsWhole) (a2 : Memref sig .tc .vmem S1x2048 .f32) (h2 : a2.IsWhole)
    (a3 : Memref sig .tc .vmem S2048x2048 .f32) (h3 : a3.IsWhole) (hc0 : ¬cond1_0 i) (hc1 : cond1_1 i)
    (x0 : Vec F S2048x512 .f32) (x1 : Vec F S512x2048 .bf16) (x2 : Vec F S1x2048 .f32) (xo : Vec F S2048x2048 .f32) :
    out1_C_3 c i a0 h0 a1 h1 a2 h2 a3 h3 hc0 hc1 x0 x1 x2 xo = k1_pay3 (k1_pay2 x0 xo x1) x2 := by
  unfold out1_C_3
  rw [View.read_writes_eq_canon _ _ _ (cover1_C_3 c i a0 h0 a1 h1 a2 h2 a3 h3 hc0 hc1 x0 x1 x2 xo)]
  unfold kernelRun1_C
  dsimp only
  sl_unfold_words
  rw [View.canon_cons_unit_zero (S := S2048x2048) hz, View.readCov_unit_zero (S := S2048x2048) _ hz]
  simp only [View.readAt_eq_ld, h0.read_unread, h1.read_unread, h2.read_unread, h3.read_unread,
    View.ld_unit_zero (S := S2048x512) hz, View.ld_unit_zero (S := S2048x2048) hz, View.ld_unit_zero (S := S512x2048) hz,
    View.ld_unit_zero (S := S1x2048) hz]

end Cert.KernelIdeal.Dec
end
-- ==== Proof.DecPayload.lean ====
/-
  The decoder body's three terms, read entry by entry over the extended reals.

  With a feature tile `x0 : [2048, 512]`, a decoder-weight tile `x1 : [512, 2048]`, a block `acc : [2048, 2048]` and the
  bias row `b : [1, 2048]`:

    the zero block            at (r, d)  is  0
    block + tile product      at (r, d)  is  acc(r, d) + ∑ j < 512, x0(r, j) · x1(j, d)
    block + bias row          at (r, d)  is  acc(r, d) + b(0, d)

  The rounding of the feature tile to the narrower format before the product is the identity at the ideal values, the
  same-shape reshapes are identities, and the product is taken into the zero accumulator, so it is the plain sum of
  products over the 512 contracted positions.
-/
import proofs.«142196_j30820685316795_2_alg».proof.Proof.Gen.KernelIdeal.Skeleton
import proofs.«142196_j30820685316795_2_alg».proof.Proof.LibMatmul
import Idealize.ShloMosaic.PureOps.Ideal.Laws
import Idealize.ShloMosaic.Lib.ValueIdx
import Idealize.ShloMosaic.Lib.ValueLayout
import Idealize.ShloMosaic.Lib.Pipeline.Value

noncomputable section
open scoped BigOperators
open Idealize.ShloMosaic Idealize.ShloMosaic.ValueIdx Idealize.SL.Sem

namespace Cert.KernelIdeal.Dec
open Cert.KernelIdeal Cert.KernelIdeal.Gen

/-- The product of a [2048, 512] tile with a [512, 2048] tile into the zero accumulator, at (r, d): the sum over the 512
    contracted positions of the products. -/
theorem tile_product (l : FVec Ideal S2048x512 .bf16) (w : FVec Ideal S512x2048 .bf16) (r d : Fin 2048) :
    matmul (F := Ideal) dot_S2048x512_S512x2048_S2048x2048_1_0_0_1_n_n none l w (constant S2048x2048 .f32 0x00000000#32) (ix2 r d)
      = ∑ j : Fin 512, l (ix2 r j) * w (ix2 j d) :=
  Cert.MatOps.matmul_plain_zero_apply none l w r d

/-- The zero block is zero at every entry. -/
theorem zero_apply (i : S2048x2048.Idx) : k1_pay1 (F := Ideal) i = 0 := by
  unfold k1_pay1
  show Ideal.ofBits .f32 0x00000000#32 = 0
  exact Ideal.ofBits_zero_f32

/-- Block + tile product, at (r, d). -/
theorem acc_apply (x0 : Vec Ideal S2048x512 .f32) (acc : Vec Ideal S2048x2048 .f32) (x1 : Vec Ideal S512x2048 .bf16) (r d : Fin 2048) :
    k1_pay2 (F := Ideal) x0 acc x1 (ix2 r d) = acc (ix2 r d) + ∑ j : Fin 512, x0 (ix2 r j) * x1 (ix2 j d) := by
  unfold k1_pay2
  show shapeCast S2048x2048 acc _ (ix2 r d)
      + matmul (F := Ideal) dot_S2048x512_S512x2048_S2048x2048_1_0_0_1_n_n none
          (truncf .bf16 (shapeCast S2048x512 x0 _) _) (shapeCast S512x2048 x1 _) (constant S2048x2048 .f32 0x00000000#32) (ix2 r d) = _
  rw [shapeCast_self, shapeCast_self, shapeCast_self]
  exact congrArg (acc (ix2 r d) + ·) (tile_product (truncf .bf16 x0 _) x1 r d)

/-- Block + bias row, at (r, d). -/
theorem bias_apply (acc : Vec Ideal S2048x2048 .f32) (b : Vec Ideal S1x2048 .f32) (r d : Fin 2048) :
    k1_pay3 (F := Ideal) acc b (ix2 r d) = acc (ix2 r d) + b (ix2 (0 : Fin 1) d) := by
  unfold k1_pay3
  show shapeCast S2048x2048 acc _ (ix2 r d) + broadcastTo S2048x2048 (shapeCast S1x2048 b _) _ (ix2 r d) = _
  rw [shapeCast_self, shapeCast_self]
  exact congrArg (acc (ix2 r d) + ·) (broadcastTo_1b_ab_apply b _ r d)

end Cert.KernelIdeal.Dec
end
-- ==== Proof.DecBlocks.lean ====
/-
  The decoder's input blocks, read entry by entry off the arrays as the region finds them.

  The grid has 4 row blocks by 32 tiles, point `t` being tile `t % 32` of row block `t / 32`. At point `t`
    the feature block   is rows 2048·(t/32) …, columns 512·(t%32) …  of the feature array  [8192, 16384],
    the weight block    is rows 512·(t%32) …,  all 2048 columns      of the weight array   [16384, 2048],
    the bias block      is the whole bias row [1, 2048],
  an entry of a block sitting in its array at block index × block size + its own coordinate on each axis.
-/
import proofs.«142196_j30820685316795_2_alg».proof.Proof.Gen.KernelIdeal.Frame
import Idealize.ShloMosaic.Lib.Pipeline.Value
import Idealize.ShloMosaic.Lib.ValueIdx

noncomputable section
open Idealize.ShloMosaic Idealize.ShloMosaic.TcCoe Idealize.SL.Sem Idealize.ShloMosaic.ValueIdx

namespace Cert.KernelIdeal.Dec
open Cert.KernelIdeal Cert.KernelIdeal.Gen

/-- The windows' block indices at every point of the grid: row block `t / 32`, tile `t % 32`. -/
theorem idx_facts : ∀ t : Fin cfg1.N,
    win1_0.index t (0 : Fin 2) = t.val / 32 ∧ win1_0.index t (1 : Fin 2) = t.val % 32
    ∧ win1_1.index t (0 : Fin 2) = t.val % 32 ∧ win1_1.index t (1 : Fin 2) = 0
    ∧ win1_2.index t (0 : Fin 2) = 0 ∧ win1_2.index t (1 : Fin 2) = 0
    ∧ win1_3.index t (0 : Fin 2) = t.val / 32 ∧ win1_3.index t (1 : Fin 2) = 0 :=
  (by decide +kernel : ∀ t : Fin grid1.N, _)

variable (V : (c : Dev nD) → (b : Ref sig .tc) → Buf (Elt Ideal) ((c : Thread nD τ).loc b)) (c : Dev nD)

/-- The feature block at point `t`, entry (r, j): the feature array at (2048·(t/32) + r, 512·(t%32) + j). -/
theorem feat_blk (t : Fin cfg1.N) (r : Fin 2048) (j : Fin 512)
    (hr : 2048 * (t.val / 32) + r.val < 8192) (hj : 512 * (t.val % 32) + j.val < 16384) :
    (iblk1 V c 0 t : Vec Ideal S2048x512 .f32) (ix2 r j)
      = V c main_v5 (ix2 (⟨2048 * (t.val / 32) + r.val, hr⟩ : Fin 8192) (⟨512 * (t.val % 32) + j.val, hj⟩ : Fin 16384)) := by
  obtain ⟨e0, e1, -⟩ := idx_facts t
  unfold iblk1
  rw [View.read_apply]
  show V c main_v5 (((cfg1.win 0).blk t).view.emb (ix2 r j)) = V c main_v5 _
  refine congrArg (V c main_v5) (funext fun a => Fin.ext ?_)
  match a with
  | ⟨0, _⟩ => show win1_0.index t (0 : Fin 2) * 2048 + 1 * r.val = 2048 * (t.val / 32) + r.val; rw [e0]; omega
  | ⟨1, _⟩ => show win1_0.index t (1 : Fin 2) * 512 + 1 * j.val = 512 * (t.val % 32) + j.val; rw [e1]; omega

/-- The weight block at point `t`, entry (j, d): the weight array at (512·(t%32) + j, d). -/
theorem wdec_blk (t : Fin cfg1.N) (j : Fin 512) (d : Fin 2048) (hj : 512 * (t.val % 32) + j.val < 16384) :
    (iblk1 V c 1 t : Vec Ideal S512x2048 .bf16) (ix2 j d)
      = V c main_v4 (ix2 (⟨512 * (t.val % 32) + j.val, hj⟩ : Fin 16384) d) := by
  obtain ⟨-, -, e2, e3, -⟩ := idx_facts t
  unfold iblk1
  rw [View.read_apply]
  show V c main_v4 (((cfg1.win 1).blk t).view.emb (ix2 j d)) = V c main_v4 _
  refine congrArg (V c main_v4) (funext fun a => Fin.ext ?_)
  match a with
  | ⟨0, _⟩ => show win1_1.index t (0 : Fin 2) * 512 + 1 * j.val = 512 * (t.val % 32) + j.val; rw [e2]; omega
  | ⟨1, _⟩ => show win1_1.index t (1 : Fin 2) * 2048 + 1 * d.val = d.val; rw [e3]; omega

/-- The bias block at any point, entry (0, d): the bias row at (0, d). -/
theorem bias_blk (t : Fin cfg1.N) (d : Fin 2048) :
    (iblk1 V c 2 t : Vec Ideal S1x2048 .f32) (ix2 (0 : Fin 1) d) = V c main_v2 (ix2 (0 : Fin 1) d) := by
  obtain ⟨-, -, -, -, e4, e5, -⟩ := idx_facts t
  unfold iblk1
  rw [View.read_apply]
  show V c main_v2 (((cfg1.win 2).blk t).view.emb (ix2 (0 : Fin 1) d)) = V c main_v2 _
  refine congrArg (V c main_v2) (funext fun a => Fin.ext ?_)
  match a with
  | ⟨0, _⟩ => show win1_2.index t (0 : Fin 2) * 1 + 1 * (0 : Fin 1).val = (0 : Fin 1).val; rw [e4]; rfl
  | ⟨1, _⟩ => show win1_2.index t (1 : Fin 2) * 2048 + 1 * d.val = d.val; rw [e5]; omega

end Cert.KernelIdeal.Dec
end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.DecSum.lean ====
/-
  One tile's contribution to a decoder entry, and the 32 contributions together.

  For features `f : [8192, 16384]` and decoder weights `w : [16384, 2048]`, row block `q < 4` and tile `s < 32`, the
  tile's contribution to the entry at row `r` of the block and column `d` is

      ∑ j < 512,  f(2048·q + r, 512·s + j) · w(512·s + j, d).

  The 16384 contracted positions are the positions `512·s + j`, each once, so the 32 contributions add up to the whole
  contraction  ∑ k < 16384, f(2048·q + r, k) · w(k, d).  (Row block and tile are natural numbers here, the contribution
  being 0 outside the grid, so that partial sums over the first tiles are sums over an initial range of naturals.)
-/
import proofs.«142196_j30820685316795_2_alg».proof.Proof.LibBlockSum
import Mathlib.Algebra.BigOperators.Fin
import Mathlib.Data.EReal.Basic

noncomputable section
open scoped BigOperators

namespace Cert.KernelIdeal.Dec

variable (f : Fin 8192 → Fin 16384 → EReal) (w : Fin 16384 → Fin 2048 → EReal)

/-- Tile `s`'s contribution to the entry at row `r` of row block `q`, column `d`. -/
def tile (q s : ℕ) (r d : Fin 2048) : EReal :=
  if h : q < 4 ∧ s < 32 then
    ∑ j : Fin 512, f ⟨2048 * q + r.val, by have := r.isLt; omega⟩ ⟨512 * s + j.val, by have := j.isLt; omega⟩
      * w ⟨512 * s + j.val, by have := j.isLt; omega⟩ d
  else 0

/-- Inside the grid the contribution is the sum of the 512 products. -/
theorem tile_of_lt (q s : ℕ) (hq : q < 4) (hs : s < 32) (r d : Fin 2048) (hR : 2048 * q + r.val < 8192)
    (hC : ∀ j : Fin 512, 512 * s + j.val < 16384) :
    tile f w q s r d = ∑ j : Fin 512, f ⟨2048 * q + r.val, hR⟩ ⟨512 * s + j.val, hC j⟩ * w ⟨512 * s + j.val, hC j⟩ d :=
  dif_pos ⟨hq, hs⟩

/-- The 32 tiles' contributions are the contraction over all 16384 positions. -/
theorem sum_tiles (q : ℕ) (hq : q < 4) (r d : Fin 2048) (hR : 2048 * q + r.val < 8192) :
    ∑ s ∈ Finset.range 32, tile f w q s r d = ∑ k : Fin 16384, f ⟨2048 * q + r.val, hR⟩ k * w k d := by
  rw [← Fin.sum_univ_eq_sum_range (fun s => tile f w q s r d) 32,
    Cert.BlockSum.sum_fin_blocks (A := 32) (B := 512) (N := 16384) (by norm_num) (fun k => f ⟨2048 * q + r.val, hR⟩ k * w k d)]
  refine Finset.sum_congr rfl fun s _ => ?_
  exact tile_of_lt f w q s.val hq s.isLt r d hR (fun j => by have := s.isLt; have := j.isLt; omega)

end Cert.KernelIdeal.Dec
end
-- ==== Proof.DecStep.lean ====
/-
  One point of the decoder's grid, entry by entry: what the output block holds after the point, from what it held before.

  Point `t` is tile `t % 32` of row block `t / 32`. With `tile q s r d` tile `s`'s contribution to the entry (r, d) of row
  block `q` (the 512 products of that tile's features and weights):

    at the first tile  (t % 32 = 0)    the block is  0 + tile,
    at a middle tile                   the block is  (the block after point t − 1) + tile,
    at the last tile   (t % 32 = 31)   the block is  ((the block after point t − 1) + tile) + the bias entry.
-/
import proofs.«142196_j30820685316795_2_alg».proof.Proof.DecPieces
import proofs.«142196_j30820685316795_2_alg».proof.Proof.DecPayload
import proofs.«142196_j30820685316795_2_alg».proof.Proof.DecBlocks
import proofs.«142196_j30820685316795_2_alg».proof.Proof.DecSum

noncomputable section
open scoped BigOperators
open Idealize.ShloMosaic Idealize.ShloMosaic.TcCoe Idealize.SL.Sem Idealize.ShloMosaic.ValueIdx

namespace Cert.KernelIdeal.Dec
open Cert.KernelIdeal Cert.KernelIdeal.Gen

variable (V : (c : Dev nD) → (b : Ref sig .tc) → Buf (Elt Ideal) ((c : Thread nD τ).loc b)) (c : Dev nD)

/-- The feature array as the region finds it, by coordinates. -/
abbrev featOf : Fin 8192 → Fin 16384 → EReal := fun r k => V c main_v5 (ix2 r k)
/-- The decoder-weight array as the region finds it, by coordinates. -/
abbrev wdecOf : Fin 16384 → Fin 2048 → EReal := fun k d => V c main_v4 (ix2 k d)

/-- The feature block, the weight block and the bias block of point `t`, at their block shapes. -/
abbrev featBlk (t : Fin cfg1.N) : Vec Ideal S2048x512 .f32 := iblk1 V c 0 t
abbrev wdecBlk (t : Fin cfg1.N) : Vec Ideal S512x2048 .bf16 := iblk1 V c 1 t
abbrev biasBlk (t : Fin cfg1.N) : Vec Ideal S1x2048 .f32 := iblk1 V c 2 t
/-- The carried block: what the output block held after the point before `t`. -/
abbrev prevBlk (t : Fin cfg1.N) : Vec Ideal S2048x2048 .f32 :=
  outsAt1 V c (t.val - 1) (Nat.lt_of_le_of_lt (Nat.sub_le _ _) t.isLt)

/-- The product of the two input blocks of point `t` at (r, d) is that tile's contribution. -/
theorem tile_eq (t : Fin cfg1.N) (r d : Fin 2048) :
    ∑ j : Fin 512, featBlk V c t (ix2 r j) * wdecBlk V c t (ix2 j d)
      = tile (featOf V c) (wdecOf V c) (t.val / 32) (t.val % 32) r d := by
  have hN : t.val < 128 := lt_of_lt_of_eq t.isLt (show cfg1.N = 128 from N_1)
  have hR : 2048 * (t.val / 32) + r.val < 8192 := by have := r.isLt; omega
  have hC : ∀ j : Fin 512, 512 * (t.val % 32) + j.val < 16384 := fun j => by have := j.isLt; omega
  rw [tile_of_lt (featOf V c) (wdecOf V c) (t.val / 32) (t.val % 32) (by omega) (by omega) r d hR hC]
  refine Finset.sum_congr rfl fun j _ => ?_
  exact congrArg₂ (· * ·) (feat_blk V c t r j hR (hC j)) (wdec_blk V c t j d (hC j))

/-- The first tile of a row block. -/
theorem first_eq (t : Fin cfg1.N) (h0 : t.val % 32 = 0) (r d : Fin 2048) :
    outsAt1 V c t.val t.isLt (ix2 r d) = 0 + tile (featOf V c) (wdecOf V c) (t.val / 32) (t.val % 32) r d := by
  have h1 : ¬t.val % 32 = 31 := by omega
  refine (congrFun (outsAt1_A V c t h0 h1) (ix2 r d)).trans ?_
  refine (congrFun (piece_first (F := Ideal) c (grid1.coords t) (ms1_0 t) (hs1_0 t) (ms1_1 t) (hs1_1 t) (ms1_2 t) (hs1_2 t)
    (ms1_3 t) (hs1_3 t) ((hcond1_0 t).mpr h0) (fun h => h1 ((hcond1_1 t).mp h)) (featBlk V c t) (wdecBlk V c t) (biasBlk V c t))
    (ix2 r d)).trans ?_
  refine (acc_apply (featBlk V c t) (k1_pay1 (F := Ideal)) (wdecBlk V c t) r d).trans ?_
  exact congrArg₂ (· + ·) (zero_apply (ix2 r d)) (tile_eq V c t r d)

/-- A middle tile. -/
theorem mid_eq (t : Fin cfg1.N) (h0 : ¬t.val % 32 = 0) (h1 : ¬t.val % 32 = 31) (r d : Fin 2048) :
    outsAt1 V c t.val t.isLt (ix2 r d)
      = prevBlk V c t (ix2 r d)
        + tile (featOf V c) (wdecOf V c) (t.val / 32) (t.val % 32) r d := by
  refine (congrFun (outsAt1_B V c t h0 h1) (ix2 r d)).trans ?_
  refine (congrFun (piece_mid (F := Ideal) c (grid1.coords t) (ms1_0 t) (hs1_0 t) (ms1_1 t) (hs1_1 t) (ms1_2 t) (hs1_2 t)
    (ms1_3 t) (hs1_3 t) (fun h => h0 ((hcond1_0 t).mp h)) (fun h => h1 ((hcond1_1 t).mp h)) (featBlk V c t) (wdecBlk V c t)
    (biasBlk V c t) (prevBlk V c t)) (ix2 r d)).trans ?_
  refine (acc_apply (featBlk V c t) (prevBlk V c t) (wdecBlk V c t) r d).trans ?_
  exact congrArg (prevBlk V c t (ix2 r d) + ·) (tile_eq V c t r d)

/-- The last tile of a row block: the bias entry is added after the tile's contribution. -/
theorem last_eq (t : Fin cfg1.N) (h0 : ¬t.val % 32 = 0) (h1 : t.val % 32 = 31) (r d : Fin 2048) :
    outsAt1 V c t.val t.isLt (ix2 r d)
      = (prevBlk V c t (ix2 r d)
          + tile (featOf V c) (wdecOf V c) (t.val / 32) (t.val % 32) r d)
        + V c main_v2 (ix2 (0 : Fin 1) d) := by
  refine (congrFun (outsAt1_C V c t h0 h1) (ix2 r d)).trans ?_
  refine (congrFun (piece_last (F := Ideal) c (grid1.coords t) (ms1_0 t) (hs1_0 t) (ms1_1 t) (hs1_1 t) (ms1_2 t) (hs1_2 t)
    (ms1_3 t) (hs1_3 t) (fun h => h0 ((hcond1_0 t).mp h)) ((hcond1_1 t).mpr h1) (featBlk V c t) (wdecBlk V c t)
    (biasBlk V c t) (prevBlk V c t)) (ix2 r d)).trans ?_
  refine (bias_apply (k1_pay2 (featBlk V c t) (prevBlk V c t) (wdecBlk V c t))
    (biasBlk V c t) r d).trans ?_
  refine congrArg₂ (· + ·) ?_ (bias_blk V c t d)
  refine (acc_apply (featBlk V c t) (prevBlk V c t) (wdecBlk V c t) r d).trans ?_
  exact congrArg (prevBlk V c t (ix2 r d) + ·) (tile_eq V c t r d)

end Cert.KernelIdeal.Dec
end
-- ==== Proof.DecValue.lean ====
/-
  The decoder region's output array after the run.

  Within a row block the output block is carried from tile to tile, so after the tile `n % 32` of row block `n / 32`
  (any tile but the last) it holds, at (r, d),

      0 + ∑ s ≤ n % 32, tile (n / 32) s r d,

  by induction on the point: the first tile stores `0 + tile`, a middle tile adds its contribution to what the point
  before left. The last tile adds its contribution and then the bias entry; the 32 contributions together are the whole
  contraction over the 16384 positions, so the block written back at the last tile of row block `q` holds at (r, d)

      (∑ k < 16384, f(2048·q + r, k) · w(k, d)) + b(d),

  the decoder's value at row 2048·q + r. Row `i` of the array lies in the block written back at the last tile of row block
  `i / 2048`, so the four write-backs cover the array and it ends holding the decoder's value everywhere. Only
  `0 + x = x` and the regrouping of a finite sum are used: no finiteness.
-/
import proofs.«142196_j30820685316795_2_alg».proof.Proof.DecStep
import proofs.«142196_j30820685316795_2_alg».proof.Proof.Spec
import Idealize.ShloMosaic.Lib.Pipeline.Value

noncomputable section
open scoped BigOperators
open Idealize.ShloMosaic Idealize.ShloMosaic.TcCoe Idealize.SL.Sem Idealize.ShloMosaic.ValueIdx
open Idealize.ShloMosaic.Pipeline (Dat)

namespace Cert.KernelIdeal.Dec
open Cert.KernelIdeal Cert.KernelIdeal.Gen

section
variable (V : (c : Dev nD) → (b : Ref sig .tc) → Buf (Elt Ideal) ((c : Thread nD τ).loc b)) (c : Dev nD)

/-- After any tile but the last of its row block, the block holds the contributions of the tiles so far. -/
theorem acc_eq : ∀ (n : ℕ) (h : n < cfg1.N), n % 32 ≠ 31 → ∀ (r d : Fin 2048),
    outsAt1 V c n h (ix2 r d) = 0 + ∑ s ∈ Finset.range (n % 32 + 1), tile (featOf V c) (wdecOf V c) (n / 32) s r d
  | 0, h, _, r, d => by
    refine (first_eq V c ⟨0, h⟩ rfl r d).trans ?_
    show (0 : EReal) + tile (featOf V c) (wdecOf V c) (0 / 32) (0 % 32) r d
      = 0 + ∑ s ∈ Finset.range (0 % 32 + 1), tile (featOf V c) (wdecOf V c) (0 / 32) s r d
    rw [Nat.zero_mod, Nat.zero_div]
    show _ = 0 + ∑ s ∈ Finset.range 1, tile (featOf V c) (wdecOf V c) 0 s r d
    rw [Finset.sum_range_one]
  | n + 1, h, hne, r, d => by
    by_cases h0 : (n + 1) % 32 = 0
    · refine (first_eq V c ⟨n + 1, h⟩ h0 r d).trans ?_
      show (0 : EReal) + tile (featOf V c) (wdecOf V c) ((n + 1) / 32) ((n + 1) % 32) r d
        = 0 + ∑ s ∈ Finset.range ((n + 1) % 32 + 1), tile (featOf V c) (wdecOf V c) ((n + 1) / 32) s r d
      rw [h0]
      show _ = 0 + ∑ s ∈ Finset.range 1, tile (featOf V c) (wdecOf V c) ((n + 1) / 32) s r d
      rw [Finset.sum_range_one]
    · have hn : n % 32 ≠ 31 := by omega
      have e1 : (n + 1) / 32 = n / 32 := by omega
      have e2 : (n + 1) % 32 = n % 32 + 1 := by omega
      refine (mid_eq V c ⟨n + 1, h⟩ h0 hne r d).trans ?_
      show outsAt1 V c n (Nat.lt_of_succ_lt h) (ix2 r d) + tile (featOf V c) (wdecOf V c) ((n + 1) / 32) ((n + 1) % 32) r d
        = 0 + ∑ s ∈ Finset.range ((n + 1) % 32 + 1), tile (featOf V c) (wdecOf V c) ((n + 1) / 32) s r d
      rw [e1, e2, Finset.sum_range_succ _ (n % 32 + 1), ← add_assoc, acc_eq n (Nat.lt_of_succ_lt h) hn r d]

/-- The decoder's value, as contents of the output array. -/
abbrev reconOf : S8192x2048.Idx → EReal := fun i =>
  Cert.Sae.recon (fun r k => V c main_v5 (ix2 r k)) (fun k d => V c main_v4 (ix2 k d)) (fun d => V c main_v2 (ix2 (0 : Fin 1) d)) (i 0) (i 1)

/-- After the last tile of a row block the block holds the decoder's value of its rows. -/
theorem out_last (t : Fin cfg1.N) (hf : t.val % 32 = 31) (r d : Fin 2048) (hR : 2048 * (t.val / 32) + r.val < 8192) :
    outsAt1 V c t.val t.isLt (ix2 r d) = reconOf V c (ix2 (⟨2048 * (t.val / 32) + r.val, hR⟩ : Fin 8192) d) := by
  have hN : t.val < 128 := lt_of_lt_of_eq t.isLt (show cfg1.N = 128 from N_1)
  have h0 : ¬t.val % 32 = 0 := by omega
  have hp : (t.val - 1) % 32 ≠ 31 := by omega
  have e1 : (t.val - 1) / 32 = t.val / 32 := by omega
  have e2 : (t.val - 1) % 32 + 1 = 31 := by omega
  have hs : ∑ s ∈ Finset.range 32, tile (featOf V c) (wdecOf V c) (t.val / 32) s r d
      = ∑ s ∈ Finset.range 31, tile (featOf V c) (wdecOf V c) (t.val / 32) s r d + tile (featOf V c) (wdecOf V c) (t.val / 32) 31 r d :=
    Finset.sum_range_succ _ 31
  refine (last_eq V c t h0 hf r d).trans ?_
  show _ = (∑ k : Fin 16384, featOf V c ⟨2048 * (t.val / 32) + r.val, hR⟩ k * wdecOf V c k d) + V c main_v2 (ix2 (0 : Fin 1) d)
  refine congrArg (· + V c main_v2 (ix2 (0 : Fin 1) d)) ?_
  show outsAt1 V c (t.val - 1) (Nat.lt_of_le_of_lt (Nat.sub_le _ _) t.isLt) (ix2 r d)
      + tile (featOf V c) (wdecOf V c) (t.val / 32) (t.val % 32) r d = _
  rw [acc_eq V c (t.val - 1) _ hp r d, e1, e2, hf, zero_add, ← hs]
  exact sum_tiles (featOf V c) (wdecOf V c) (t.val / 32) (by omega) r d hR

/-- What the last tile of a row block writes back is that block of the decoder's value. -/
theorem flushed_eq (t : Fin cfg1.N) (hf : t.val % 32 = 31) :
    (dat1 V c).flushed 3 t = ((cfg1.win 3).blk t).view.read (Elt Ideal) (reconOf V c) := by
  have hN : t.val < 128 := lt_of_lt_of_eq t.isLt (show cfg1.N = 128 from N_1)
  obtain ⟨-, -, -, -, -, -, e6, e7⟩ := idx_facts t
  show (cfg1.win 3).cut (grid1.coords t) ((dat1 V c).after 3 t) = _
  rw [after1_3]
  funext (y : S2048x2048.Idx)
  obtain ⟨r, d, rfl⟩ : ∃ (r d : Fin 2048), y = ix2 r d := ⟨y 0, y 1, eq_ix2 y⟩
  have hR : 2048 * (t.val / 32) + r.val < 8192 := by have := r.isLt; omega
  show outsAt1 V c t.val t.isLt (ix2 r d) = reconOf V c (((cfg1.win 3).blk t).view.emb (ix2 r d))
  refine (out_last V c t hf r d hR).trans ?_
  refine congrArg (reconOf V c) (funext fun a => Fin.ext ?_)
  match a with
  | ⟨0, _⟩ => show 2048 * (t.val / 32) + r.val = win1_3.index t (0 : Fin 2) * 2048 + 1 * r.val; rw [e6]; omega
  | ⟨1, _⟩ => show d.val = win1_3.index t (1 : Fin 2) * 2048 + 1 * d.val; rw [e7]; omega

end

/-- The decoder region's output array ends holding the decoder's value of the arrays the region finds. -/
theorem final (V : (c : Dev nD) → (b : Ref sig .tc) → Buf (Elt Ideal) ((c : Thread nD τ).loc b)) (c : Dev nD) :
    (dat1 (F := Ideal) V c).arrAt 3 cfg1.N
      = fun i : S8192x2048.Idx => Cert.Sae.recon (fun r k => V c main_v5 (ix2 r k)) (fun k d => V c main_v4 (ix2 k d))
          (fun d => V c main_v2 (ix2 (0 : Fin 1) d)) (i 0) (i 1) :=
  (dat1 V c).arrAt_eq_of_cover 3 (reconOf V c) (fun t hf => flushed_eq V c t ((flush1_3 t).mp hf)) fun i => by
    have hi0 : (i 0).val < 8192 := (i 0).isLt
    have hi1 : (i 1).val < 2048 := (i 1).isLt
    have ht : 32 * ((i 0).val / 2048) + 31 < cfg1.N := by rw [show cfg1.N = 128 from N_1]; omega
    obtain ⟨-, -, -, -, -, -, e6, e7⟩ := idx_facts ⟨32 * ((i 0).val / 2048) + 31, ht⟩
    have e6' : win1_3.index ⟨32 * ((i 0).val / 2048) + 31, ht⟩ (0 : Fin 2) = (32 * ((i 0).val / 2048) + 31) / 32 := e6
    refine ⟨⟨32 * ((i 0).val / 2048) + 31, ht⟩, (flush1_3 _).mpr (by show (32 * ((i 0).val / 2048) + 31) % 32 = 31; omega), ?_⟩
    show i ∈ ((View.whole main_v6).slice (win1_3.rect ⟨32 * ((i 0).val / 2048) + 31, ht⟩)).set
    rw [View.set_slice_whole, Rect.mem_set_unit]
    intro a
    match a with
    | ⟨0, _⟩ =>
      show win1_3.index ⟨32 * ((i 0).val / 2048) + 31, ht⟩ (0 : Fin 2) * 2048 ≤ (i 0).val
        ∧ (i 0).val < win1_3.index ⟨32 * ((i 0).val / 2048) + 31, ht⟩ (0 : Fin 2) * 2048 + 2048
      rw [e6']; omega
    | ⟨1, _⟩ =>
      show win1_3.index ⟨32 * ((i 0).val / 2048) + 31, ht⟩ (1 : Fin 2) * 2048 ≤ (i 1).val
        ∧ (i 1).val < win1_3.index ⟨32 * ((i 0).val / 2048) + 31, ht⟩ (1 : Fin 2) * 2048 + 2048
      rw [e7]; omega

end Cert.KernelIdeal.Dec
end
-- ==== Proof.RefValue.lean ====
/-
  The reference program's two results, read element by element, are the shared specification:

    features r c = pre r c   if  threshold c < pre r c,  else 0,     pre r c = (∑ k, (x r k − b_dec k) · W_enc k c) + b_enc c
    recon r d    = (∑ k, features r k · W_dec k d) + b_dec d.

  Each host operation is read at an index (the generated reading lemmas); the broadcast and contraction index
  functions composed along the way are the coordinate indices `ix1` / `ix2`; and the product of the pre-activation with
  the comparison's 0/1 word, converted to a float, is the gate.
-/
import proofs.«142196_j30820685316795_2_alg».proof.Proof.Gen.KernelIdeal.Frame
import proofs.«142196_j30820685316795_2_alg».proof.Proof.Gen.ReferenceIdeal.Read
import proofs.«142196_j30820685316795_2_alg».proof.Proof.Spec
import Idealize.ShloMosaic.Lib.Pipeline.Value
import Idealize.ShloMosaic.Lib.ValueIdx

noncomputable section
open Idealize.ShloMosaic Idealize.ShloMosaic.TcCoe Idealize.SL.Sem Idealize.ShloMosaic.ValueIdx
open Idealize.ShloMosaic.Pipeline (Dat)

namespace Cert.ReferenceIdeal.RefValue
open Cert.ReferenceIdeal Cert.ReferenceIdeal.Gen Cert.ReferenceIdeal.Read

/-! ## The composed index functions are the coordinate indices -/

/-- The first contraction reads its left operand at row `r`, column `k`. -/
theorem lidx3 (r : Fin 8192) (c : Fin 16384) (k : Fin 2048) : lidx_main_v3 (ix2 r c) k = ix2 r k :=
  funext fun a => Fin.ext (by match a with | ⟨0, _⟩ => rfl | ⟨1, _⟩ => rfl)

/-- The first contraction reads its right operand at row `k`, column `c`. -/
theorem ridx3 (r : Fin 8192) (c : Fin 16384) (k : Fin 2048) : ridx_main_v3 (ix2 r c) k = ix2 k c :=
  funext fun a => Fin.ext (by match a with | ⟨0, _⟩ => rfl | ⟨1, _⟩ => rfl)

/-- The decoder bias broadcast along the rows reads the bias at the column. -/
theorem idx01 (r : Fin 8192) (k : Fin 2048) : idx_main_v0 (idx_main_v1 (ix2 r k)) = ix1 k :=
  funext fun a => Fin.ext (by match a with | ⟨0, _⟩ => rfl)

/-- The encoder bias broadcast along the rows reads the bias at the column. -/
theorem idx45 (r : Fin 8192) (c : Fin 16384) : idx_main_v4 (idx_main_v5 (ix2 r c)) = ix1 c :=
  funext fun a => Fin.ext (by match a with | ⟨0, _⟩ => rfl)

/-- The threshold broadcast along the rows reads the threshold at the column. -/
theorem idx78 (r : Fin 8192) (c : Fin 16384) : idx_main_v7 (idx_main_v8 (ix2 r c)) = ix1 c :=
  funext fun a => Fin.ext (by match a with | ⟨0, _⟩ => rfl)

/-- The second contraction reads its left operand at row `r`, column `k`. -/
theorem lidx12 (r : Fin 8192) (d : Fin 2048) (k : Fin 16384) : lidx_main_v12 (ix2 r d) k = ix2 r k :=
  funext fun a => Fin.ext (by match a with | ⟨0, _⟩ => rfl | ⟨1, _⟩ => rfl)

/-- The second contraction reads its right operand at row `k`, column `d`. -/
theorem ridx12 (r : Fin 8192) (d : Fin 2048) (k : Fin 16384) : ridx_main_v12 (ix2 r d) k = ix2 k d :=
  funext fun a => Fin.ext (by match a with | ⟨0, _⟩ => rfl | ⟨1, _⟩ => rfl)

/-- The decoder bias added at the end reads the bias at the column. -/
theorem idx1314 (r : Fin 8192) (d : Fin 2048) : idx_main_v13 (idx_main_v14 (ix2 r d)) = ix1 d :=
  funext fun a => Fin.ext (by match a with | ⟨0, _⟩ => rfl)

/-! ## The pre-activation -/

/-- The centred input at row `r`, column `k`. -/
theorem v2_at (x0 : (⟨S8192x2048, .f32⟩ : BufTy).Contents (Elt Ideal)) (x5 : (⟨S2048, .f32⟩ : BufTy).Contents (Elt Ideal))
    (r : Fin 8192) (k : Fin 2048) :
    val_main_v2 (F := Ideal) x0 x5 (ix2 r k) = x0 (ix2 r k) - x5 (ix1 k) := by
  rw [val_main_v2_apply, val_main_v1_apply, val_main_v0_apply, idx01]
  rfl

/-- The reference's pre-activation is the specification's. -/
theorem pre_eq (x0 : (⟨S8192x2048, .f32⟩ : BufTy).Contents (Elt Ideal)) (x1 : (⟨S2048x16384, .f32⟩ : BufTy).Contents (Elt Ideal))
    (x2 : (⟨S16384, .f32⟩ : BufTy).Contents (Elt Ideal)) (x5 : (⟨S2048, .f32⟩ : BufTy).Contents (Elt Ideal))
    (r : Fin 8192) (c : Fin 16384) :
    val_main_v6 (F := Ideal) x0 x1 x2 x5 (ix2 r c)
      = Cert.Sae.pre (fun r k => x0 (ix2 r k)) (fun k n => x1 (ix2 k n)) (fun n => x2 (ix1 n)) (fun k => x5 (ix1 k)) r c := by
  rw [val_main_v6_apply, val_main_v3_apply, val_main_v5_apply, val_main_v4_apply, idx45]
  unfold Cert.Sae.pre
  refine congrArg (· + x2 (ix1 c)) (Finset.sum_congr rfl fun k _ => ?_)
  rw [lidx3, ridx3, v2_at]

/-! ## The features -/

/-- The threshold at row `r`, column `c`. -/
theorem v8_at (x3 : (⟨S16384, .f32⟩ : BufTy).Contents (Elt Ideal)) (r : Fin 8192) (c : Fin 16384) :
    val_main_v8 (F := Ideal) x3 (ix2 r c) = x3 (ix1 c) := by
  rw [val_main_v8_apply, val_main_v7_apply, idx78]

/-- The reference's features at row `r`, column `c`. -/
theorem feat_at (x0 : (⟨S8192x2048, .f32⟩ : BufTy).Contents (Elt Ideal)) (x1 : (⟨S2048x16384, .f32⟩ : BufTy).Contents (Elt Ideal))
    (x2 x3 : (⟨S16384, .f32⟩ : BufTy).Contents (Elt Ideal)) (x5 : (⟨S2048, .f32⟩ : BufTy).Contents (Elt Ideal))
    (r : Fin 8192) (c : Fin 16384) :
    val_main_v11 (F := Ideal) x0 x1 x2 x3 x5 (ix2 r c)
      = Cert.Sae.feat (fun r k => x0 (ix2 r k)) (fun k n => x1 (ix2 k n)) (fun n => x2 (ix1 n)) (fun n => x3 (ix1 n))
          (fun k => x5 (ix1 k)) r c := by
  rw [val_main_v11_apply, val_main_v10_apply, val_main_v9_apply, v8_at, pre_eq]
  unfold Cert.Sae.feat
  exact Cert.Sae.mul_indicator _ _

theorem feat_eq (x0 : (⟨S8192x2048, .f32⟩ : BufTy).Contents (Elt Ideal)) (x1 : (⟨S2048x16384, .f32⟩ : BufTy).Contents (Elt Ideal))
    (x2 x3 : (⟨S16384, .f32⟩ : BufTy).Contents (Elt Ideal)) (x5 : (⟨S2048, .f32⟩ : BufTy).Contents (Elt Ideal)) :
    val_main_v11 (F := Ideal) x0 x1 x2 x3 x5
      = fun i : S8192x16384.Idx => Cert.Sae.feat (fun r k => x0 (ix2 r k)) (fun k n => x1 (ix2 k n)) (fun n => x2 (ix1 n)) (fun n => x3 (ix1 n))
          (fun k => x5 (ix1 k)) (i 0) (i 1) := by
  funext i
  obtain ⟨r, c, rfl⟩ : ∃ (r : Fin 8192) (c : Fin 16384), i = ix2 r c := ⟨i 0, i 1, eq_ix2 i⟩
  exact feat_at x0 x1 x2 x3 x5 r c

theorem recon_eq (x0 : (⟨S8192x2048, .f32⟩ : BufTy).Contents (Elt Ideal)) (x1 : (⟨S2048x16384, .f32⟩ : BufTy).Contents (Elt Ideal))
    (x2 x3 : (⟨S16384, .f32⟩ : BufTy).Contents (Elt Ideal)) (x4 : (⟨S16384x2048, .f32⟩ : BufTy).Contents (Elt Ideal)) (x5 : (⟨S2048, .f32⟩ : BufTy).Contents (Elt Ideal)) :
    val_main_v15 (F := Ideal) x0 x1 x2 x3 x4 x5
      = fun i : S8192x2048.Idx => Cert.Sae.recon
          (Cert.Sae.feat (fun r k => x0 (ix2 r k)) (fun k n => x1 (ix2 k n)) (fun n => x2 (ix1 n)) (fun n => x3 (ix1 n)) (fun k => x5 (ix1 k)))
          (fun k d => x4 (ix2 k d)) (fun d => x5 (ix1 d)) (i 0) (i 1) := by
  funext i
  obtain ⟨r, d, rfl⟩ : ∃ (r : Fin 8192) (d : Fin 2048), i = ix2 r d := ⟨i 0, i 1, eq_ix2 i⟩
  rw [val_main_v15_apply, val_main_v12_apply, val_main_v14_apply, val_main_v13_apply, idx1314]
  show _ = Cert.Sae.recon _ _ _ r d
  unfold Cert.Sae.recon
  refine congrArg (· + x5 (ix1 d)) (Finset.sum_congr rfl fun k _ => ?_)
  rw [lidx12, ridx12, feat_at]

end Cert.ReferenceIdeal.RefValue
end
-- ==== Proof.Bridge.lean ====
/-
  The two programs compute one function of the argument arrays.

  The kernel program: after the host stretch the three bias vectors are one-row arrays and the two weight matrices keep
  their values; the first region's output array is the gated pre-activation `feat` of those; the second region finds it
  unchanged and its output array is the decoder `recon` of it. The reference program's two results, read operation by
  operation, are the same two functions of the same arguments. So from memories that agree on the arguments both runs end
  with equal feature arrays and equal reconstructions, entry by entry, as extended reals.
-/
import proofs.«142196_j30820685316795_2_alg».proof.Defs
import proofs.«142196_j30820685316795_2_alg».proof.Proof.Gen.Kernel.Frame
import proofs.«142196_j30820685316795_2_alg».proof.Proof.Gen.KernelIdeal.Frame
import proofs.«142196_j30820685316795_2_alg».proof.Proof.Gen.ReferenceIdeal
import proofs.«142196_j30820685316795_2_alg».proof.Proof.Gen.ReferenceIdeal.Run
import proofs.«142196_j30820685316795_2_alg».proof.Proof.Gen.ReferenceIdeal.Read
import proofs.«142196_j30820685316795_2_alg».proof.Proof.Gen.Pre_finite_inputs
import proofs.«142196_j30820685316795_2_alg».proof.Proof.Spec
import proofs.«142196_j30820685316795_2_alg».proof.Proof.KRun
import proofs.«142196_j30820685316795_2_alg».proof.Proof.HostOps
import proofs.«142196_j30820685316795_2_alg».proof.Proof.EncValue
import proofs.«142196_j30820685316795_2_alg».proof.Proof.DecValue
import proofs.«142196_j30820685316795_2_alg».proof.Proof.RefValue

noncomputable section

open Idealize.ShloMosaic Idealize.ShloMosaic.TcCoe Idealize.SL.Sem Idealize.ShloMosaic.ValueIdx

namespace Cert.Proof.Bridge

section
open Cert.KernelIdeal Cert.KernelIdeal.Gen

variable (m : (ℓ : Loc nD τ sig) → Buf (Elt Ideal) ℓ) (ρ : Dev nD → PrngReg)

/-- The feature array as a function of the argument arrays. -/
def featOf (c : Dev nD) : Fin 8192 → Fin 16384 → EReal :=
  Cert.Sae.feat (fun r k => m ((c : Thread nD τ).loc main_arg0) (ix2 r k)) (fun k n => m ((c : Thread nD τ).loc main_arg1) (ix2 k n))
    (fun n => m ((c : Thread nD τ).loc main_arg2) (ix1 n)) (fun n => m ((c : Thread nD τ).loc main_arg3) (ix1 n))
    (fun k => m ((c : Thread nD τ).loc main_arg5) (ix1 k))

/-- The two result arrays as functions of the argument arrays. -/
def G5 (c : Dev nD) : Buf (Elt Ideal) ((c : Thread nD τ).loc main_v5) := fun i : S8192x16384.Idx => featOf m c (i 0) (i 1)
def G6 (c : Dev nD) : Buf (Elt Ideal) ((c : Thread nD τ).loc main_v6) := fun i : S8192x2048.Idx =>
  Cert.Sae.recon (featOf m c) (fun k d => m ((c : Thread nD τ).loc main_arg4) (ix2 k d)) (fun d => m ((c : Thread nD τ).loc main_arg5) (ix1 d)) (i 0) (i 1)

/-- The gate depends on its five arguments only through their values. -/
theorem feat_congr {x x' : Fin 8192 → Fin 2048 → EReal} {we we' : Fin 2048 → Fin 16384 → EReal} {be be' th th' : Fin 16384 → EReal}
    {bd bd' : Fin 2048 → EReal} (h0 : ∀ r k, x r k = x' r k) (h1 : ∀ k n, we k n = we' k n) (h2 : ∀ n, be n = be' n)
    (h3 : ∀ n, th n = th' n) (h4 : ∀ k, bd k = bd' k) : Cert.Sae.feat x we be th bd = Cert.Sae.feat x' we' be' th' bd' := by
  obtain rfl : x = x' := funext fun r => funext fun k => h0 r k
  obtain rfl : we = we' := funext fun k => funext fun n => h1 k n
  obtain rfl : be = be' := funext h2
  obtain rfl : th = th' := funext h3
  obtain rfl : bd = bd' := funext h4
  rfl

/-- The decoder depends on its three arguments only through their values. -/
theorem recon_congr {f f' : Fin 8192 → Fin 16384 → EReal} {wd wd' : Fin 16384 → Fin 2048 → EReal} {bd bd' : Fin 2048 → EReal}
    (h0 : ∀ r k, f r k = f' r k) (h1 : ∀ k d, wd k d = wd' k d) (h2 : ∀ d, bd d = bd' d) :
    Cert.Sae.recon f wd bd = Cert.Sae.recon f' wd' bd' := by
  obtain rfl : f = f' := funext fun r => funext fun k => h0 r k
  obtain rfl : wd = wd' := funext fun k => funext fun d => h1 k d
  obtain rfl : bd = bd' := funext h2
  rfl

/-- The first region's output array is the gated pre-activation of the ARGUMENT arrays: the region's entry arrays read
    back through the host stretch (the one-row bias arrays at (0, n), the weights entry by entry). -/
theorem first_region (c : Dev nD) : (dat0 (F := Ideal) (V1 m ρ) c).arrAt 5 cfg0.N = G5 m c :=
  (Cert.KernelIdeal.Enc.final (V1 m ρ) c).trans (funext fun i => congrFun (congrFun (feat_congr
    (fun r k => congrFun (Cert.KernelIdeal.HostOps.V1_main_arg0 m ρ c) (ix2 r k))
    (fun k n => Cert.KernelIdeal.HostOps.wenc_at m ρ c k n)
    (fun n => Cert.KernelIdeal.HostOps.benc_at m ρ c n)
    (fun n => Cert.KernelIdeal.HostOps.thr_at m ρ c n)
    (fun k => Cert.KernelIdeal.HostOps.bdec_at m ρ c k)) (i 0)) (i 1))

/-- The feature result at the end of the run. -/
theorem kernel_v5 (c : Dev nD) : W3 m ρ c (Proc.devRef .tc main_v5) = G5 m c :=
  (Cert.KernelIdeal.KRun.W3_main_v5 m ρ c).trans (first_region m ρ c)

/-- The reconstruction result at the end of the run: the decoder of what the second region finds — the first region's
    feature array, the decoder weights and the one-row decoder bias as the host stretch left them. -/
theorem kernel_v6 (c : Dev nD) : W3 m ρ c (Proc.devRef .tc main_v6) = G6 m c :=
  (Cert.KernelIdeal.KRun.W3_main_v6 m ρ c).trans ((Cert.KernelIdeal.Dec.final (V2 m ρ) c).trans (funext fun i => congrFun (congrFun (recon_congr
    (fun r k => congrFun ((Cert.KernelIdeal.KRun.V2_main_v5 m ρ c).trans (first_region m ρ c)) (ix2 r k))
    (fun k d => (congrFun (Cert.KernelIdeal.KRun.V2_main_v4 m ρ c) (ix2 k d)).trans (Cert.KernelIdeal.HostOps.wdec_at m ρ c k d))
    (fun d => (congrFun (Cert.KernelIdeal.KRun.V2_main_v2 m ρ c) (ix2 (0 : Fin 1) d)).trans (Cert.KernelIdeal.HostOps.bdec_at m ρ c d))) (i 0)) (i 1)))

/-- From memories agreeing on the arguments both programs run, and end with the reconstruction at `G6` and the features
    at `G5` of the kernel's argument arrays: the kernel by its run read region by region, the reference by its run read
    operation by operation, the agreement of the arguments rewritten. -/
theorem algebraic : Cert.algebraic_KernelIdeal_ReferenceIdeal := by
  intro m ρ m' ρ' _ hagree
  refine ⟨fun c => G6 m c, fun c => G5 m c, ?_, ?_⟩
  · exact (θ_run Cert.KernelIdeal.defs _ _).mono
      (fun r h c => ⟨(h c).1.trans (kernel_v6 m ρ c), (h c).2.1.trans (kernel_v5 m ρ c), (h c).2.2⟩)
      (Cert.KernelIdeal.KRun.run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v15_eq, Cert.ReferenceIdeal.RefValue.recon_eq,
        (hagree c).1, (hagree c).2.1, (hagree c).2.2.1, (hagree c).2.2.2.1, (hagree c).2.2.2.2.1, (hagree c).2.2.2.2.2]
      rfl
    · rw [Cert.ReferenceIdeal.Read.val_main_v11_eq, Cert.ReferenceIdeal.RefValue.feat_eq,
        (hagree c).1, (hagree c).2.1, (hagree c).2.2.1, (hagree c).2.2.2.1, (hagree c).2.2.2.2.2]
      rfl

/-- The three programs run and leave their arguments as launched; the reference's frame is its run with the results
    dropped. No operation of the kernel was rewritten by idealization, so there is nothing to preserve. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)
theorem preserves : Cert.preserves_Kernel_KernelIdeal := trivial

end

end Cert.Proof.Bridge

end
-- ==== Proof.lean ====
/-
  A JumpReLU sparse auto-encoder's forward pass as two tiled kernels — encode: features = pre where pre exceeds the
  threshold, zero elsewhere, pre = (x − b_dec) · W_enc + b_enc, one [256, 4096] output block per grid point; decode:
  reconstruction = features · W_dec + b_dec, each [2048, 2048] output block accumulated over 32 tiles of the contracted
  axis — against the same computation written with whole-array operations, where the gate is a product with the
  comparison's 0/1 indicator. Over the extended reals the two agree entry by entry: a product with a 0/1 indicator is the
  gate; a matrix product into a zero accumulator is the plain sum of products; the sum over 16384 contracted positions is
  the sum over the 32 tiles of the sums over their 512 positions, started from zero; a change of float format is the
  identity. None of these needs the inputs to be finite.

  The modules: Spec (the two functions and the indicator law), EncPayload/EncValue (the first region's output array),
  DecPieces/DecPayload/.../DecValue (the second region's), RefValue (the reference's results), HostOps (the host
  operations before the first region), KRun (the kernel program's run, its results named), Bridge (the claims).
-/
import proofs.«142196_j30820685316795_2_alg».proof.Defs
import proofs.«142196_j30820685316795_2_alg».proof.Proof.Gen.Kernel
import proofs.«142196_j30820685316795_2_alg».proof.Proof.Gen.Kernel.Skeleton
import proofs.«142196_j30820685316795_2_alg».proof.Proof.Gen.Kernel.Launch
import proofs.«142196_j30820685316795_2_alg».proof.Proof.Gen.Kernel.Points
import proofs.«142196_j30820685316795_2_alg».proof.Proof.Gen.Kernel.Frame
import proofs.«142196_j30820685316795_2_alg».proof.Proof.Gen.KernelIdeal
import proofs.«142196_j30820685316795_2_alg».proof.Proof.Gen.KernelIdeal.Skeleton
import proofs.«142196_j30820685316795_2_alg».proof.Proof.Gen.KernelIdeal.Launch
import proofs.«142196_j30820685316795_2_alg».proof.Proof.Gen.KernelIdeal.Points
import proofs.«142196_j30820685316795_2_alg».proof.Proof.Gen.KernelIdeal.Frame
import proofs.«142196_j30820685316795_2_alg».proof.Proof.Gen.ReferenceIdeal
import proofs.«142196_j30820685316795_2_alg».proof.Proof.Gen.ReferenceIdeal.Run
import proofs.«142196_j30820685316795_2_alg».proof.Proof.Gen.ReferenceIdeal.Read
import proofs.«142196_j30820685316795_2_alg».proof.Proof.Gen.Pre_finite_inputs
import proofs.«142196_j30820685316795_2_alg».proof.Proof.Bridge
import Idealize.ShloMosaic.Adequacy
import Idealize.ShloMosaic.Init

noncomputable section

namespace Cert.Proof

open Idealize.ShloMosaic Idealize.SL.Sem Cert.Kernel

/-- The certificate's five claims under the programs' proved side conditions. -/
theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, Bridge.preserves, Bridge.algebraic⟩

end Cert.Proof

end
